-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x512x256 : Shape := ⟨3, ![512, 512, 256]⟩
abbrev S_ : Shape := ⟨0, ![]⟩

class Facts : Prop where
  bcast_S_S512x512x256 : S_.BroadcastsInDim S512x512x256 (![] : Fin 0 → Fin S512x512x256.rank)
  reducesTo_S512x512x256_S_d0_1_2 : S512x512x256.ReducesTo [0, 1, 2] S_
  h_S_ : 0 < S_.numel

variable [Facts]

def fn {F : FTy → Type} [FloatOps F] (main_arg0 : FVec F S512x512x256 .f32) (main_arg1 : FVec F S512x512x256 .f32) : IVec S_ 1 :=
  let main_v0 : FVec F S512x512x256 .f32 := Host.absf main_arg0
  let main_cst : FVec F S_ .f32 := constant S_ .f32 0x7F800000#32
  let main_v1 : FVec F S512x512x256 .f32 := broadcastInDim S512x512x256 ![] bcast_S_S512x512x256 main_cst
  let main_v2 : IVec S512x512x256 1 := cmpf .olt main_v0 main_v1
  let main_c : IVec S_ 1 := constantI S_ 1 1#1
  let main_v3 : IVec S_ 1 := (fun x v => Host.reduce IntOp.andi x v reducesTo_S512x512x256_S_d0_1_2 h_S_) main_v2 main_c
  let main_v4 : FVec F S512x512x256 .f32 := Host.absf main_arg1
  let main_cst_0 : FVec F S_ .f32 := constant S_ .f32 0x7F800000#32
  let main_v5 : FVec F S512x512x256 .f32 := broadcastInDim S512x512x256 ![] bcast_S_S512x512x256 main_cst_0
  let main_v6 : IVec S512x512x256 1 := cmpf .olt main_v4 main_v5
  let main_c_1 : IVec S_ 1 := constantI S_ 1 1#1
  let main_v7 : IVec S_ 1 := (fun x v => Host.reduce IntOp.andi x v reducesTo_S512x512x256_S_d0_1_2 h_S_) main_v6 main_c_1
  let main_v8 : IVec S_ 1 := andi main_v3 main_v7
  main_v8
-- ==== Kernel.lean ====
abbrev S512x512x256 : Shape := ⟨3, ![512, 512, 256]⟩
abbrev S512x512x512 : Shape := ⟨3, ![512, 512, 512]⟩
abbrev S8x512x256 : Shape := ⟨3, ![8, 512, 256]⟩
abbrev S8x512x512 : Shape := ⟨3, ![8, 512, 512]⟩
abbrev S1x512x256 : Shape := ⟨3, ![1, 512, 256]⟩
abbrev S512x256 : Shape := ⟨2, ![512, 256]⟩
abbrev S512 : Shape := ⟨1, ![512]⟩
abbrev S512x1 : Shape := ⟨2, ![512, 1]⟩
abbrev S512x512 : Shape := ⟨2, ![512, 512]⟩
abbrev S1x512 : Shape := ⟨2, ![1, 512]⟩
abbrev S1x512x512 : Shape := ⟨3, ![1, 512, 512]⟩

abbrev nBuf : Space → Nat
  | .hbm => 3
  | .vmem => 6
  | .smem => 0
  | _ => 0

abbrev bufTy : (tb : Table) → Fin (tcTables nBuf tb) → BufTy
  | .hbm, ⟨0, _⟩ => ⟨S512x512x256, .f32⟩
  | .hbm, ⟨1, _⟩ => ⟨S512x512x256, .f32⟩
  | .hbm, ⟨2, _⟩ => ⟨S512x512x512, .f32⟩
  | .local _ .vmem, ⟨0, _⟩ => ⟨S8x512x256, .f32⟩
  | .local _ .vmem, ⟨1, _⟩ => ⟨S8x512x256, .f32⟩
  | .local _ .vmem, ⟨2, _⟩ => ⟨S8x512x256, .f32⟩
  | .local _ .vmem, ⟨3, _⟩ => ⟨S8x512x256, .f32⟩
  | .local _ .vmem, ⟨4, _⟩ => ⟨S8x512x512, .f32⟩
  | .local _ .vmem, ⟨5, _⟩ => ⟨S8x512x512, .f32⟩
  | _, _ => ⟨S512x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v0 : BitVec 32 := Scalar.addi c0_i32 c8_i32
  let c1_i32 : BitVec 32 := 1#32
  ⟨c0_i32, v0, c1_i32⟩
def k0_off1 (k0_t1 : Fin k0_t1_loop.trips) : Fin 3 → Nat :=
  let c0_i32 : BitVec 32 := 0#32
  let c1_i32 : BitVec 32 := 1#32
  let arg4 : BitVec 32 := Scf.iv c0_i32 c1_i32 k0_t1
  let v1 : Index := Scalar.indexCast arg4
  let c0 : Index := 0#32
  let c0_1 : Index := 0#32
  ![v1.toNat, 0, 0]
def k0_off2 (k0_t1 : Fin k0_t1_loop.trips) : Fin 3 → Nat :=
  let c0_i32 : BitVec 32 := 0#32
  let c1_i32 : BitVec 32 := 1#32
  let arg4 : BitVec 32 := Scf.iv c0_i32 c1_i32 k0_t1
  let v27 : Index := Scalar.indexCast arg4
  let c0_9 : Index := 0#32
  let c0_10 : Index := 0#32
  ![v27.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  h_S1x512x256 : 0 < S1x512x256.numel
  shapeCasts_S1x512x256_S512x256 : S1x512x256.ShapeCasts S512x256
  reduces_S512x256_S512 : S512x256.Reduces [1] S512
  shapeCasts_S512_S512x1 : S512.ShapeCasts S512x1
  bitsLt_bf16_f32 : FTy.bits .bf16 < FTy.bits .f32
  shapeCasts_S512_S1x512 : S512.ShapeCasts S1x512
  broadcasts_S512x1_S512x512 : S512x1.Broadcasts S512x512
  broadcasts_S1x512_S512x512 : S1x512.Broadcasts S512x512
  h_S1x512x512 : 0 < S1x512x512.numel
  shapeCasts_S1x512x512_S512x512 : S1x512x512.ShapeCasts S512x512
  shapeCasts_S512x512_S1x512x512 : S512x512.ShapeCasts S1x512x512
  dot_S512x256_S512x256_S512x512_1_1_0_0_n_n_wf : DotDims.WF S512x256 S512x256 S512x512 [1] [1] [0] [0] [] []
  hrank0 : 0 < grid0.rank
  k0_t1_ok : k0_t1_loop.OK
  k0_off1_inb : ∀ k0_t1 : Fin k0_t1_loop.trips, ∀ a, (k0_off1 k0_t1) a + S1x512x256.size a ≤ S8x512x256.size a
  k0_off2_inb : ∀ k0_t1 : Fin k0_t1_loop.trips, ∀ a, (k0_off2 k0_t1) a + S1x512x512.size a ≤ S8x512x512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x512x256.size a ≤ S512x512x256.size a
  hwx0_0 : ∀ i : grid0.Coords, EltTy.bits .f32 = 32 ∨ (Rect.block (s := S512x512x256) S8x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x512x256.size a ≤ S512x512x256.size a
  hwx0_1 : ∀ i : grid0.Coords, EltTy.bits .f32 = 32 ∨ (Rect.block (s := S512x512x256) S8x512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x512x512.size a ≤ S512x512x512.size a
  hwx0_2 : ∀ i : grid0.Coords, EltTy.bits .f32 = 32 ∨ (Rect.block (s := S512x512x512) S8x512x512.size (cc0_transform_2 i) (hinb0_2 i)).WholeWords (EltTy.packing .f32)

variable [Facts₀]

def dot_S512x256_S512x256_S512x512_1_1_0_0_n_n : DotDims S512x256 S512x256 S512x512 where
  lhsContracting := [1]
  rhsContracting := [1]
  lhsNonContracting := [0]
  rhsNonContracting := [0]
  lhsBatch := []
  rhsBatch := []
  wf := dot_S512x256_S512x256_S512x512_1_1_0_0_n_n_wf

abbrev win0_0 : Pipeline.Window sig grid0 :=
  Pipeline.Window.ofSpec (Memref.whole main_arg0) S8x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x512x256 : Shape := ⟨3, ![512, 512, 256]⟩
abbrev S_ : Shape := ⟨0, ![]⟩
abbrev S512x512 : Shape := ⟨2, ![512, 512]⟩
abbrev S512x512x512 : Shape := ⟨3, ![512, 512, 512]⟩
abbrev S512x512x1 : Shape := ⟨3, ![512, 512, 1]⟩
abbrev S512x1x512 : Shape := ⟨3, ![512, 1, 512]⟩

abbrev nBuf : Space → Nat
  | .hbm => 25
  | .vmem => 0
  | .smem => 0
  | _ => 0

abbrev bufTy : (tb : Table) → Fin (tcTables nBuf tb) → BufTy
  | .hbm, ⟨0, _⟩ => ⟨S512x512x256, .f32⟩
  | .hbm, ⟨1, _⟩ => ⟨S512x512x256, .f32⟩
  | .hbm, ⟨2, _⟩ => ⟨S_, .f32⟩
  | .hbm, ⟨3, _⟩ => ⟨S512x512x256, .f32⟩
  | .hbm, ⟨4, _⟩ => ⟨S512x512x256, .f32⟩
  | .hbm, ⟨5, _⟩ => ⟨S512x512x256, .f32⟩
  | .hbm, ⟨6, _⟩ => ⟨S_, .f32⟩
  | .hbm, ⟨7, _⟩ => ⟨S512x512, .f32⟩
  | .hbm, ⟨8, _⟩ => ⟨S512x512x256, .f32⟩
  | .hbm, ⟨9, _⟩ => ⟨S_, .f32⟩
  | .hbm, ⟨10, _⟩ => ⟨S512x512, .f32⟩
  | .hbm, ⟨11, _⟩ => ⟨S512x512x512, .f32⟩
  | .hbm, ⟨12, _⟩ => ⟨S512x512x1, .f32⟩
  | .hbm, ⟨13, _⟩ => ⟨S512x1x512, .f32⟩
  | .hbm, ⟨14, _⟩ => ⟨S512x512x512, .f32⟩
  | .hbm, ⟨15, _⟩ => ⟨S512x512x512, .f32⟩
  | .hbm, ⟨16, _⟩ => ⟨S512x512x512, .f32⟩
  | .hbm, ⟨17, _⟩ => ⟨S_, .f32⟩
  | .hbm, ⟨18, _⟩ => ⟨S512x512x512, .f32⟩
  | .hbm, ⟨19, _⟩ => ⟨S512x512x512, .f32⟩
  | .hbm, ⟨20, _⟩ => ⟨S512x512x512, .f32⟩
  | .hbm, ⟨21, _⟩ => ⟨S_, .f32⟩
  | .hbm, ⟨22, _⟩ => ⟨S512x512x512, .f32⟩
  | .hbm, ⟨23, _⟩ => ⟨S512x512x512, .f32⟩
  | .hbm, ⟨24, _⟩ => ⟨S512x512x512, .f32⟩
  | _, _ => ⟨S512x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  bcast_S_S512x512x256 : S_.BroadcastsInDim S512x512x256 (![] : Fin 0 → Fin S512x512x256.rank)
  reducesTo_S512x512x256_S512x512_d2 : S512x512x256.ReducesTo [2] S512x512
  h_S_ : 0 < S_.numel
  bcast_S512x512_S512x512x1_0_1 : S512x512.BroadcastsInDim S512x512x1 (![0, 1] : Fin 2 → Fin S512x512x1.rank)
  bcast_S512x512_S512x1x512_0_2 : S512x512.BroadcastsInDim S512x1x512 (![0, 2] : Fin 2 → Fin S512x1x512.rank)
  bcast_S512x512x1_S512x512x512_0_1_2 : S512x512x1.BroadcastsInDim S512x512x512 (![0, 1, 2] : Fin 3 → Fin S512x512x512.rank)
  bcast_S512x1x512_S512x512x512_0_1_2 : S512x1x512.BroadcastsInDim S512x512x512 (![0, 1, 2] : Fin 3 → Fin S512x512x512.rank)
  bcast_S_S512x512x512 : S_.BroadcastsInDim S512x512x512 (![] : Fin 0 → Fin S512x512x512.rank)
  dot_S512x512x256_S512x512x256_S512x512x512_2_2_1_1_0_0_wf : DotDims.WF S512x512x256 S512x512x256 S512x512x512 [2] [2] [1] [1] [0] [0]

variable [Facts₀]

def dot_S512x512x256_S512x512x256_S512x512x512_2_2_1_1_0_0 : DotDims S512x512x256 S512x512x256 S512x512x512 where
  lhsContracting := [2]
  rhsContracting := [2]
  lhsNonContracting := [1]
  rhsNonContracting := [1]
  lhsBatch := [0]
  rhsBatch := [0]
  wf := dot_S512x512x256_S512x512x256_S512x512x512_2_2_1_1_0_0_wf

class Facts : Prop extends Facts₀ where

variable [Facts]
-- ==== Proof.DistSpec.lean ====
/-
  The pairwise Euclidean distance of two batches of row vectors, as one function of the two argument arrays.

  For a batch index b, a row p of the first array and a row q of the second, the entry (b, p, q) is the square root of

      max ( |x_p|² + |y_q - ε|² - 2 · ⟨x_p, y_q - ε⟩ , 0 ),

  where x_p is row p of batch b of the first array, y_q row q of batch b of the second, ε one fixed number subtracted
  from every entry of the second array, and the three sums run over the 256 coordinates of a row.  All of it is read on
  the extended reals, with the operations in exactly this order; nothing is expanded or cancelled.
-/
import Idealize.ShloMosaic.PureOps.Ideal.Laws
import Idealize.ShloMosaic.Lib.ValueIdx

noncomputable section

open scoped BigOperators

namespace Cert.DistSpec

open Idealize.ShloMosaic Idealize.ShloMosaic.ValueIdx

/-- The number ε subtracted from every entry of the second array. -/
abbrev shift : EReal := Ideal.ofBits .f32 0x358637BD#32

/-- The factor in front of the inner product. -/
abbrev two : EReal := Ideal.ofBits .f32 0x40000000#32

/-- The distance between a row `u` and a row `v` shifted by ε: the clipped square root of
    |u|² + |v - ε|² - 2 ⟨u, v - ε⟩. -/
def rowDist (u v : Fin 256 → EReal) : EReal :=
  Ideal.sqrt (max (((∑ d, u d * u d) + ∑ d, (v d - shift) * (v d - shift)) - two * ∑ d, u d * (v d - shift)) 0)

/-- The whole result: entry (b, p, q) is the distance between row p of batch b of `x` and row q of batch b of `y`. -/
def dist (x y : (⟨3, ![512, 512, 256]⟩ : Shape).Idx → EReal) : (⟨3, ![512, 512, 512]⟩ : Shape).Idx → EReal :=
  fun i => rowDist (fun d => x (ix3 (i 0) (i 1) d)) (fun d => y (ix3 (i 0) (i 2) d))

theorem dist_apply (x y : (⟨3, ![512, 512, 256]⟩ : Shape).Idx → EReal) (b p q : Fin 512) :
    dist x y (ix3 b p q) = rowDist (fun d => x (ix3 b p d)) (fun d => y (ix3 b q d)) := rfl

end Cert.DistSpec

end
-- ==== Proof.RefDist.lean ====
/-
  The reference computes the pairwise distance of the specification, entry by entry.

  Read at an entry (b, p, q), the reference's last array is the square root of the clipped difference of two terms: the
  sum of two row sums — the squares of row p of batch b of the first argument, and the squares of row q of batch b of
  the shifted second argument, each kept along an axis of extent one and repeated — and twice the batched product of
  row p with the shifted row q.  Each host sum starts from zero, which adds nothing.
-/
import proofs.«126458_j63333587746928_2_alg».proof.Proof.Gen.ReferenceIdeal.Read
import proofs.«126458_j63333587746928_2_alg».proof.Proof.DistSpec

noncomputable section

open scoped BigOperators

namespace Cert.ReferenceIdeal.RefDist

open Cert.ReferenceIdeal Cert.ReferenceIdeal.Gen Cert.ReferenceIdeal.Read Idealize.ShloMosaic Idealize.ShloMosaic.ValueIdx

/-- The reference's result array is the specification's distance array of its two arguments. -/
theorem ref_eq (x0 x1 : (⟨S512x512x256, .f32⟩ : BufTy).Contents (Elt Ideal)) :
    val_main_v17 (F := Ideal) x0 x1 = Cert.DistSpec.dist x0 x1 := by
  funext i
  obtain ⟨b, p, q, rfl⟩ : ∃ (b p q : Fin 512), i = ix3 b p q := ⟨i 0, i 1, i 2, eq_ix3 i⟩
  have h3 : ∀ k : Fin 256, idx_main_v3 (idx_main_v7 (idx_main_v9 (ix3 b p q))) k = ix3 b p k := fun k =>
    funext fun a => Fin.ext (by match a with | ⟨0, _⟩ => rfl | ⟨1, _⟩ => rfl | ⟨2, _⟩ => rfl)
  have h5 : ∀ k : Fin 256, idx_main_v5 (idx_main_v8 (idx_main_v10 (ix3 b p q))) k = ix3 b q k := fun k =>
    funext fun a => Fin.ext (by match a with | ⟨0, _⟩ => rfl | ⟨1, _⟩ => rfl | ⟨2, _⟩ => rfl)
  have hl : ∀ k : Fin 256, lidx_main_v6 (ix3 b p q) k = ix3 b p k := fun k =>
    funext fun a => Fin.ext (by match a with | ⟨0, _⟩ => rfl | ⟨1, _⟩ => rfl | ⟨2, _⟩ => rfl)
  have hr : ∀ k : Fin 256, ridx_main_v6 (ix3 b p q) k = ix3 b q k := fun k =>
    funext fun a => Fin.ext (by match a with | ⟨0, _⟩ => rfl | ⟨1, _⟩ => rfl | ⟨2, _⟩ => rfl)
  rw [val_main_v17_apply, val_main_v16_apply, val_main_v14_apply, val_main_v11_apply, val_main_v9_apply,
    val_main_v7_apply, val_main_v3_apply, val_main_v10_apply, val_main_v8_apply, val_main_v5_apply,
    val_main_v13_apply, val_main_v12_apply, val_main_v6_apply, val_main_v15_apply]
  simp only [h3, h5, hl, hr, val_main_v2_apply, val_main_v4_apply, val_main_v1_apply, val_main_v0_apply,
    val_main_cst_apply, val_main_cst_0_apply, val_main_cst_1_apply, val_main_cst_2_apply, val_main_cst_3_apply,
    Ideal.hostUnary_sqrt_def, Ideal.maximumf_def, Ideal.subf_def, Ideal.addf_def, Ideal.mulf_def, Ideal.ofBits_def,
    Ideal.ofBits_zero_f32, zero_add]
  rfl

end Cert.ReferenceIdeal.RefDist

end
-- ==== Proof.TripPieces.lean ====
/-
  What the kernel's body leaves in its output block, one trip of its loop at a time.

  The body walks the eight batch rows of its staged blocks.  Trip k loads slab k — the entries (k, ·, ·) — of each of
  the two input blocks and stores one slab, a function of those two, at slab k of the output block.  The eight stored
  slabs sit at different values of the leading coordinate, so an entry (k, p, q) of the output block holds what trip k
  stored at (0, p, q), whatever the block held before and whatever the other trips stored.
-/
import proofs.«126458_j63333587746928_2_alg».proof.Proof.Gen.KernelIdeal.Frame
import Idealize.ShloMosaic.Lib.WritesUnit

noncomputable section

namespace Cert.KernelIdeal.TripPieces

open Cert.KernelIdeal Cert.KernelIdeal.Gen Idealize.ShloMosaic Idealize.ShloMosaic.TcCoe Idealize.SL.Sem

variable {F : FTy → Type} [FloatOps F]

/-- What trip `k` stores: the body's arithmetic applied to slab `k` of each input block. -/
def tripPay (x0 x1 : Vec F S8x512x256 .f32) (k : Fin k0_t1_loop.trips) : FVec F S1x512x512 .f32 :=
  k0_pay1 (View.ld x0 (Rect.unit (s := S8x512x256) (k0_off1 k) S1x512x256.size (k0_off1_inb k)))
    (View.ld x1 (Rect.unit (s := S8x512x256) (k0_off1 k) S1x512x256.size (k0_off1_inb k)))

variable (c : Dev nD) (i : grid0.Coords) (arg1 : Memref sig .tc .vmem S8x512x256 .f32) (harg1 : arg1.IsWhole)
  (arg2 : Memref sig .tc .vmem S8x512x256 .f32) (harg2 : arg2.IsWhole)
  (arg3 : Memref sig .tc .vmem S8x512x512 .f32) (harg3 : arg3.IsWhole)
  (x0 x1 : Vec F S8x512x256 .f32)

/-- One trip writes one piece: slab `k` of the output block, holding `tripPay x0 x1 k`. -/
theorem trip_piece (k : Fin k0_t1_loop.trips) :
    tripL_k0_t1 (F := F) Variants.none c none i arg1 harg1 arg2 harg2 arg3 harg3 (harg1.unread x0) (harg2.unread x1) k
      = [⟨Rect.unit (s := S8x512x512) (k0_off2 k) S1x512x512.size (k0_off2_inb k), tripPay x0 x1 k⟩] := by
  unfold tripL_k0_t1 trip_k0_t1
  dsimp only
  unfold tripPay
  simp only [View.readAt_eq_ld, harg1.read_unread, harg2.read_unread]

/-- The pieces of the first `n` trips, newest first, are the first `n` slab stores. -/
theorem pieces_eq (n : ℕ) (hn : n ≤ k0_t1_loop.trips) :
    pb_k0_t1 (F := F) Variants.none c none i arg1 harg1 arg2 harg2 arg3 harg3 (harg1.unread x0) (harg2.unread x1) n
      = View.tilePieces (s := S8x512x512) S1x512x512.size (fun k => k0_off2 k) k0_off2_inb (tripPay x0 x1) n hn := by
  induction n with
  | zero => rfl
  | succ n ih =>
    refine (pb_k0_t1_succ (F := F) Variants.none c none i arg1 harg1 arg2 harg2 arg3 harg3 (harg1.unread x0)
      (harg2.unread x1) ⟨n, hn⟩).trans ?_
    rw [trip_piece, ih (Nat.le_of_succ_le hn)]
    rfl

/-- The body's run leaves exactly the pieces of all its trips. -/
theorem run_pieces :
    (kernelRun0_A (F := F) c i arg1 harg1 arg2 harg2 arg3 harg3 x0 x1).1
      = View.tilePieces (s := S8x512x512) S1x512x512.size (fun k => k0_off2 k) k0_off2_inb (tripPay x0 x1)
          k0_t1_loop.trips le_rfl := by
  have h : (kernelRun0_A (F := F) c i arg1 harg1 arg2 harg2 arg3 harg3 x0 x1).1
      = pb_k0_t1 (F := F) Variants.none c none i arg1 harg1 arg2 harg2 arg3 harg3 (harg1.unread x0) (harg2.unread x1)
          k0_t1_loop.trips := by
    unfold kernelRun0_A
    rfl
  rw [h, pieces_eq]

end Cert.KernelIdeal.TripPieces

end
-- ==== Proof.LibRowOps.lean ====
/-
  Three readings at an entry (p, q) of a two-axis array, for the shapes a row-wise reduction meets.

  A vector of one value per row, kept as a column [a, 1] and repeated along the columns, reads at (p, q) its value
  for row p.  A vector of one value per column, kept as a row [1, b] and repeated along the rows, reads at (p, q) its
  value for column q.  And the sum over the second axis of an [a, n] array, read on the extended reals, is at row p
  the sum over d of the entries (p, d).
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.RowOps

open Idealize.ShloMosaic Idealize.ShloMosaic.ValueIdx

variable {α : Type}

/-- One value per row, kept as a column and repeated along `b` columns: at (p, q) it is the value of row `p`. -/
theorem column_repeated_apply {a b : ℕ} (v : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ v hc) hb (ix2 p q) = v (ix1 p) := by
  refine (broadcastTo_apply _ hb (ix2 p q) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else q.val
      rw [if_pos rfl]
  · exact shapeCast_apply v hc _ _ (by
      rw [Shape.rowMajor_val_one, Shape.rowMajor_val_two]
      show p.val = p.val * 1 + 0
      omega)

/-- One value per column, kept as a row and repeated along `a` rows: at (p, q) it is the value of column `q`. -/
theorem row_repeated_apply {a b : ℕ} (v : (⟨1, ![b]⟩ : Shape).Idx → α)
    (hc : (⟨1, ![b]⟩ : Shape).ShapeCasts ⟨2, ![1, b]⟩) (hb : (⟨2, ![1, b]⟩ : Shape).Broadcasts ⟨2, ![a, b]⟩)
    (p : Fin a) (q : Fin b) :
    broadcastTo ⟨2, ![a, b]⟩ (shapeCast ⟨2, ![1, b]⟩ v hc) hb (ix2 p q) = v (ix1 q) :=
  (broadcastTo_1b_ab_apply _ hb p q).trans (shapeCast_a_1a_apply v hc 0 q)

/-- The sum over the second axis of an [a, n] array of extended reals: at row `p` the sum over `d` of the entries (p, d). -/
theorem sum_over_columns_apply {a n : ℕ} (src : FVec Ideal ⟨2, ![a, n]⟩ .f32)
    (h : (⟨2, ![a, n]⟩ : Shape).Reduces [1] ⟨1, ![a]⟩) (hφ : FKind.Formats .f32)
    (hacc : (0x00000000#32 : BitVec 32) = 0x00000000#32) (p : Fin a) :
    multiReduction .add [1] ⟨1, ![a]⟩ src 0x00000000#32 h hφ hacc (ix1 p) = ∑ d : Fin n, src (ix2 p d) :=
  (Ideal.multiReduction_add_single src 0x00000000#32 h hφ hacc (ix1 p)).trans
    (Finset.sum_congr rfl fun d _ => congrArg src (funext fun ax => Fin.ext (by
      match ax with
      | ⟨0, _⟩ => rfl
      | ⟨1, _⟩ => rfl)))

end Cert.RowOps

end
-- ==== Proof.LibMatmulRows.lean ====
/-
  A matrix product against the rows of the right factor, read at an entry.

  For the dimension numbers of a product with the right factor transposed — an [a, n] array times an [b, n] array,
  contracting the second axis of both, no batch axis (the einsum "qd,kd->qk") — the product accumulated onto the zero
  array is, on the extended reals, at (p, q) the sum over k of left (p, k) · right (q, k): the dot product of row p of
  the left factor with row q of the right one.  The extents are variables, so the reading does not change with a
  kernel's tiling.
-/
import Idealize.ShloMosaic.Lib.ValueIdx
import Idealize.ShloMosaic.PureOps.Ideal.Laws

noncomputable section

open scoped BigOperators

namespace Cert.MatmulRows

open Idealize.ShloMosaic Idealize.ShloMosaic.ValueIdx

/-- The dimension numbers of an [a, n] × [b, n]ᵀ product, over any witness of their well-formedness. -/
abbrev dims {a n b : ℕ}
    (wf : DotDims.WF ⟨2, ![a, n]⟩ ⟨2, ![b, n]⟩ ⟨2, ![a, b]⟩ [1] [1] [0] [0] [] []) :
    DotDims ⟨2, ![a, n]⟩ ⟨2, ![b, n]⟩ ⟨2, ![a, b]⟩ :=
  ⟨[1], [1], [0], [0], [], [], wf⟩

/-- A product against the right factor's rows, onto the zero array: at (p, q) the sum over k of
    left (p, k) · right (q, k). -/
theorem zero_acc_apply {a n b : ℕ} {φ₁ φ₂ : FTy}
    (wf : DotDims.WF ⟨2, ![a, n]⟩ ⟨2, ![b, n]⟩ ⟨2, ![a, b]⟩ [1] [1] [0] [0] [] [])
    (prec : Option ContractPrecision) (L : FVec Ideal ⟨2, ![a, n]⟩ φ₁) (R : FVec Ideal ⟨2, ![b, n]⟩ φ₂)
    (p : Fin a) (q : Fin b) :
    FloatOps.matmul (dims wf) prec L R (constant ⟨2, ![a, b]⟩ .f32 0x00000000#32) (ix2 p q)
      = ∑ k : Fin n, L (ix2 p k) * R (ix2 q k) := by
  rw [Ideal.matmul_constant_zero_apply, ← Equiv.sum_comp (contrEquiv1 (dims wf) n rfl rfl).symm]
  refine Finset.sum_congr rfl fun k _ => ?_
  have hk := contrEquiv1_symm_val (dims wf) n rfl rfl k
  have el : (dims wf).lhsIdx (ix2 p q) ((contrEquiv1 (dims wf) n rfl rfl).symm k) = ix2 p k :=
    funext fun ax => Fin.ext (by
      match ax with
      | ⟨0, _⟩ => rfl
      | ⟨1, _⟩ => exact ((dims wf).lhsIdx_val_of_single rfl _ _).trans hk)
  have er : (dims wf).rhsIdx (ix2 p q) ((contrEquiv1 (dims wf) n rfl rfl).symm k) = ix2 q k :=
    funext fun ax => Fin.ext (by
      match ax with
      | ⟨0, _⟩ => rfl
      | ⟨1, _⟩ => exact ((dims wf).rhsIdx_val_of_single rfl _ _).trans hk)
  rw [el, er]

end Cert.MatmulRows

end
-- ==== Proof.RowPayload.lean ====
/-
  What one trip of the kernel's loop stores, read at an entry.

  A trip loads one batch row of each staged block — a [1, 512, 256] slab of each argument — and stores a [1, 512, 512]
  slab.  Read at (0, p, q) the stored slab is the specification's distance between row p of the first slab and row q
  of the second: the row sums of squares are kept as a column and as a row and repeated across the 512 × 512 tile, the
  product against the rows of the shifted second slab is a sum over the 256 coordinates, and the narrowing of the two
  factors before the product changes nothing on the extended reals.
-/
import proofs.«126458_j63333587746928_2_alg».proof.Proof.Gen.KernelIdeal.Skeleton
import proofs.«126458_j63333587746928_2_alg».proof.Proof.DistSpec
import proofs.«126458_j63333587746928_2_alg».proof.Proof.LibRowOps
import proofs.«126458_j63333587746928_2_alg».proof.Proof.LibMatmulRows
import Idealize.ShloMosaic.Lib.ValueLayout

noncomputable section

open scoped BigOperators

namespace Cert.KernelIdeal.RowPayload

open Cert.KernelIdeal Cert.KernelIdeal.Gen Idealize.ShloMosaic Idealize.ShloMosaic.ValueIdx

/-- The stored slab of one trip at (u, p, q), u the one index of its leading axis: the distance between row p of the
    first loaded slab and row q of the second. -/
theorem pay_apply (a b : Vec Ideal S1x512x256 .f32) (u : Fin 1) (p q : Fin 512) :
    k0_pay1 (F := Ideal) a b (ix3 u p q)
      = Cert.DistSpec.rowDist (fun d => a (ix3 (0 : Fin 1) p d)) (fun d => b (ix3 (0 : Fin 1) q d)) := by
  unfold k0_pay1
  refine (shapeCast_ab_1ab_apply _ shapeCasts_S512x512_S1x512x512 u p q).trans ?_
  have hA : ∀ (r : Fin 512) (d : Fin 256),
      shapeCast S512x256 a shapeCasts_S1x512x256_S512x256 (ix2 r d) = a (ix3 (0 : Fin 1) r d) :=
    fun r d => shapeCast_1ab_ab_apply a shapeCasts_S1x512x256_S512x256 r d
  have hB : ∀ (r : Fin 512) (d : Fin 256),
      shapeCast S512x256 b shapeCasts_S1x512x256_S512x256 (ix2 r d) = b (ix3 (0 : Fin 1) r d) :=
    fun r d => shapeCast_1ab_ab_apply b shapeCasts_S1x512x256_S512x256 r d
  generalize shapeCast S512x256 a shapeCasts_S1x512x256_S512x256 = A at hA ⊢
  generalize shapeCast S512x256 b shapeCasts_S1x512x256_S512x256 = B at hB ⊢
  unfold Cert.DistSpec.rowDist
  refine congrArg Ideal.sqrt ?_
  refine congrArg₂ max ?_ Ideal.ofBits_zero_f32
  refine congrArg₂ (· - ·) (congrArg₂ (· + ·) ?_ ?_) (congrArg₂ (· * ·) rfl ?_)
  · -- the squares of row p of the first slab, summed, kept as a column and repeated
    refine (Cert.RowOps.column_repeated_apply _ shapeCasts_S512_S512x1 broadcasts_S512x1_S512x512 p q).trans ?_
    refine (Cert.RowOps.sum_over_columns_apply (mulf A A) reduces_S512x256_S512 (.inl rfl) rfl p).trans ?_
    refine Finset.sum_congr rfl fun d _ => ?_
    show A (ix2 p d) * A (ix2 p d) = _
    rw [hA]
  · -- the squares of row q of the shifted second slab, summed, kept as a row and repeated
    refine (Cert.RowOps.row_repeated_apply _ shapeCasts_S512_S1x512 broadcasts_S1x512_S512x512 p q).trans ?_
    refine (Cert.RowOps.sum_over_columns_apply _ reduces_S512x256_S512 (.inl rfl) rfl q).trans ?_
    refine Finset.sum_congr rfl fun d _ => ?_
    show (B (ix2 q d) - Cert.DistSpec.shift) * (B (ix2 q d) - Cert.DistSpec.shift) = _
    rw [hB]
  · -- the product of row p with the shifted row q
    refine (Cert.MatmulRows.zero_acc_apply dot_S512x256_S512x256_S512x512_1_1_0_0_n_n_wf none _ _ p q).trans ?_
    refine Finset.sum_congr rfl fun d _ => ?_
    show A (ix2 p d) * (B (ix2 q d) - Cert.DistSpec.shift) = _
    rw [hA, hB]

end Cert.KernelIdeal.RowPayload

end
-- ==== Proof.LibSlabStores.lean ====
/-
  A three-axis buffer filled slab by slab along its leading axis, read at an entry.

  A buffer of shape [n, a, b] receives NT stores, store k writing a [1, a, b] slab at offsets (k, 0, 0).  The slabs sit
  at different values of the leading coordinate, so they never overlap: an entry (k, p, q) reads what store k wrote at
  (0, p, q), whatever the buffer held before and in whatever order the stores were made.
-/
import Idealize.ShloMosaic.Lib.WritesUnit

namespace Cert.SlabStores

open Idealize.ShloMosaic

/-- After the NT slab stores `P 0, …, P (NT - 1)`, store `k` at offsets `(k, 0, 0)`, an entry `y` whose leading
    coordinate is `k` and whose other two coordinates are those of `x` reads `P k x`. -/
theorem read_slabs {Val : EltTy → Type} {sig : RefSig} {κ : Kind} {sp : Space} {n a b : ℕ} {e : EltTy}
    (v : View sig κ sp ⟨3, ![n, a, b]⟩ e) (f : v.ty.Contents Val) {NT : ℕ}
    (off : Fin NT → Fin 3 → ℕ) (inb : ∀ i ax, off i ax + (![1, a, b] : Fin 3 → ℕ) ax ≤ (![n, a, b] : Fin 3 → ℕ) ax)
    (P : Fin NT → (⟨3, ![1, a, b]⟩ : Shape).Idx → Val e) (hoff : ∀ k, off k = ![k.val, 0, 0])
    (k : Fin NT) (y : (⟨3, ![n, a, b]⟩ : Shape).Idx) (x : (⟨3, ![1, a, b]⟩ : Shape).Idx)
    (h0 : (y 0).val = k.val) (h1 : (y 1).val = (x 1).val) (h2 : (y 2).val = (x 2).val) :
    v.read Val (v.writes Val f (View.tilePieces (s := ⟨3, ![n, a, b]⟩) ![1, a, b] off inb P NT le_rfl)) y = P k x := by
  refine View.read_tilePieces v f ![1, a, b] off inb P NT le_rfl y k k.isLt x (fun ax => ?_) 0 (fun k' hk' => ?_)
  · rw [hoff]
    have hx0 : (x 0).val < 1 := (x 0).isLt
    match ax with
    | ⟨0, _⟩ => show (y 0).val = k.val + (x 0).val; omega
    | ⟨1, _⟩ => show (y 1).val = 0 + (x 1).val; omega
    | ⟨2, _⟩ => show (y 2).val = 0 + (x 2).val; omega
  · rw [hoff]
    have hne : k'.val ≠ k.val := fun h => hk' (Fin.ext h)
    show (y 0).val < k'.val ∨ k'.val + 1 ≤ (y 0).val
    omega

end Cert.SlabStores
-- ==== Proof.BodyEntry.lean ====
/-
  The kernel's output block after the body, read at an entry.

  The body leaves in its output block eight stored slabs, one per batch row of the staged blocks.  At (k, p, q) the
  block therefore holds what the trip for batch row k stored at (0, p, q): the specification's distance between row p
  of slab k of the first input block and row q of slab k of the second.
-/
import proofs.«126458_j63333587746928_2_alg».proof.Proof.TripPieces
import proofs.«126458_j63333587746928_2_alg».proof.Proof.RowPayload
import proofs.«126458_j63333587746928_2_alg».proof.Proof.LibSlabStores

noncomputable section

namespace Cert.KernelIdeal.BodyEntry

open Cert.KernelIdeal Cert.KernelIdeal.Gen Cert.KernelIdeal.TripPieces Idealize.ShloMosaic Idealize.ShloMosaic.TcCoe
  Idealize.SL.Sem Idealize.ShloMosaic.ValueIdx

variable (c : Dev nD) (i : grid0.Coords) (arg1 : Memref sig .tc .vmem S8x512x256 .f32) (harg1 : arg1.IsWhole)
  (arg2 : Memref sig .tc .vmem S8x512x256 .f32) (harg2 : arg2.IsWhole)
  (arg3 : Memref sig .tc .vmem S8x512x512 .f32) (harg3 : arg3.IsWhole)

/-- An entry of the output block whose leading coordinate is `k` holds what trip `k` stored at the entry's other two
    coordinates: the slabs of different trips never meet. -/
theorem out_apply {F : FTy → Type} [FloatOps F] (x0 x1 : Vec F S8x512x256 .f32) (k : Fin k0_t1_loop.trips)
    (y : S8x512x512.Idx) (x : S1x512x512.Idx)
    (h0 : (y 0).val = k.val) (h1 : (y 1).val = (x 1).val) (h2 : (y 2).val = (x 2).val) :
    out0_A_2 (F := F) c i arg1 harg1 arg2 harg2 arg3 harg3 x0 x1 y = tripPay x0 x1 k x := by
  unfold out0_A_2
  rw [run_pieces]
  exact Cert.SlabStores.read_slabs (Val := Elt F) VO0_2 _ (fun k => k0_off2 k) k0_off2_inb (tripPay x0 x1) k0_off2_eq
    k y x h0 h1 h2

/-- The loop makes eight trips. -/
theorem trips_eq : k0_t1_loop.trips = 8 := by decide

/-- On the extended reals the output block at (k, p, q) is the distance between row p of batch row k of the first
    input block and row q of batch row k of the second. -/
theorem body_apply (x0 x1 : Vec Ideal S8x512x256 .f32) (k : Fin 8) (p q : Fin 512) :
    out0_A_2 (F := Ideal) c i arg1 harg1 arg2 harg2 arg3 harg3 x0 x1 (ix3 k p q)
      = Cert.DistSpec.rowDist (fun d => x0 (ix3 k p d)) (fun d => x1 (ix3 k q d)) := by
  have hk : k.val < k0_t1_loop.trips := by rw [trips_eq]; exact k.isLt
  rw [out_apply c i arg1 harg1 arg2 harg2 arg3 harg3 x0 x1 ⟨k.val, hk⟩ (ix3 k p q) (ix3 (0 : Fin 1) p q) rfl rfl rfl]
  unfold tripPay
  rw [Cert.KernelIdeal.RowPayload.pay_apply]
  -- slab k of a block, read at (0, r, d), is the block at (k, r, d)
  have e : ∀ (X : Vec Ideal S8x512x256 .f32) (r : Fin 512) (d : Fin 256),
      View.ld X (Rect.unit (s := S8x512x256) (k0_off1 ⟨k.val, hk⟩) S1x512x256.size (k0_off1_inb ⟨k.val, hk⟩))
        (ix3 (0 : Fin 1) r d) = X (ix3 k r d) := by
    intro X r d
    refine congrArg X (funext fun a => Fin.ext ?_)
    show (k0_off1 ⟨k.val, hk⟩) a + 1 * ((ix3 (0 : Fin 1) r d) a).val = ((ix3 k r d) a).val
    rw [k0_off1_eq]
    match a with
    | ⟨0, _⟩ => show k.val + 1 * 0 = k.val; omega
    | ⟨1, _⟩ => show 0 + 1 * r.val = r.val; omega
    | ⟨2, _⟩ => show 0 + 1 * d.val = d.val; omega
  exact congrArg₂ Cert.DistSpec.rowDist (funext fun d => e x0 p d) (funext fun d => e x1 q d)

end Cert.KernelIdeal.BodyEntry

end
-- ==== Proof.WholeArray.lean ====
/-
  From the kernel's blocks to its whole result array.

  Grid point t stages batch rows 8t … 8t + 7 of both arguments, whole in the other two axes, and writes back batch rows
  8t … 8t + 7 of the result.  Entry (k, p, q) of what point t writes back is the distance between row p of batch row
  8t + k of the first argument and row q of batch row 8t + k of the second: the block of the specification's distance
  array that the output window names at t.  The 64 blocks cover the 512 batch rows, so after the run the result array
  is the distance array of the two arguments.
-/
import proofs.«126458_j63333587746928_2_alg».proof.Proof.Gen.KernelIdeal.Value
import proofs.«126458_j63333587746928_2_alg».proof.Proof.BodyEntry

noncomputable section

namespace Cert.KernelIdeal.WholeArray

open Cert.KernelIdeal Cert.KernelIdeal.Gen Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

/-- The three windows move together: at point `t` each names block `t` along the batch axis and block 0 along the
    other two (decided over the 64 points). -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

/-- The first input block at point `t`, at (k, r, d), is the first argument at (8t + k, r, d). -/
theorem iblk0_apply (c : Dev nD) (t : Fin cfg0.N) (k : Fin 8) (r : Fin 512) (d : Fin 256) (j : S512x512x256.Idx)
    (h0 : (j 0).val = 8 * t.val + k.val) (h1 : (j 1).val = r.val) (h2 : (j 2).val = d.val) :
    (iblk m c 0 t : Vec Ideal S8x512x256 .f32) (ix3 k r d)
      = (V m c main_arg0 : S512x512x256.Idx → Elt Ideal .f32) j := by
  obtain ⟨e0, e1, e2, -⟩ := idx_facts t
  unfold iblk
  rw [View.read_apply]
  show V m c main_arg0 _ = V m c main_arg0 _
  refine congrArg (V m c main_arg0) (funext fun a => Fin.ext ?_)
  match a with
  | ⟨0, _⟩ => show win0_0.index t 0 * 8 + 1 * k.val = (j 0).val; omega
  | ⟨1, _⟩ => show win0_0.index t 1 * 512 + 1 * r.val = (j 1).val; omega
  | ⟨2, _⟩ => show win0_0.index t 2 * 256 + 1 * d.val = (j 2).val; omega

/-- The second input block at point `t`, at (k, r, d), is the second argument at (8t + k, r, d). -/
theorem iblk1_apply (c : Dev nD) (t : Fin cfg0.N) (k : Fin 8) (r : Fin 512) (d : Fin 256) (j : S512x512x256.Idx)
    (h0 : (j 0).val = 8 * t.val + k.val) (h1 : (j 1).val = r.val) (h2 : (j 2).val = d.val) :
    (iblk m c 1 t : Vec Ideal S8x512x256 .f32) (ix3 k r d)
      = (V m c main_arg1 : S512x512x256.Idx → Elt Ideal .f32) j := by
  obtain ⟨-, -, -, e0, e1, e2, -⟩ := idx_facts t
  unfold iblk
  rw [View.read_apply]
  show V m c main_arg1 _ = V m c main_arg1 _
  refine congrArg (V m c main_arg1) (funext fun a => Fin.ext ?_)
  match a with
  | ⟨0, _⟩ => show win0_1.index t 0 * 8 + 1 * k.val = (j 0).val; omega
  | ⟨1, _⟩ => show win0_1.index t 1 * 512 + 1 * r.val = (j 1).val; omega
  | ⟨2, _⟩ => show win0_1.index t 2 * 256 + 1 * d.val = (j 2).val; omega

/-- What the output block holds after the body at point `t`, at (k, p, q): the distance array of the two arguments at
    (8t + k, p, q). -/
theorem entry_eq (c : Dev nD) (t : Fin cfg0.N) (k : Fin 8) (p q : Fin 512) (i : S512x512x512.Idx)
    (h0 : (i 0).val = 8 * t.val + k.val) (h1 : (i 1).val = p.val) (h2 : (i 2).val = q.val) :
    outsAt0 m c t (ix3 k p q) = Cert.DistSpec.dist (V m c main_arg0) (V m c main_arg1) i := by
  unfold outsAt0
  rw [Cert.KernelIdeal.BodyEntry.body_apply]
  unfold Cert.DistSpec.dist
  refine congrArg₂ Cert.DistSpec.rowDist (funext fun d => ?_) (funext fun d => ?_)
  · exact iblk0_apply m c t k p d _ h0 h1 rfl
  · exact iblk1_apply m c t k q d _ h0 h2 rfl

/-- What point `t` writes back is block `t` of the distance array of the two arguments. -/
theorem flushed_eq (c : Dev nD) (t : Fin cfg0.N) :
    (dats m 0 c).flushed 2 t
      = ((cfg0.win 2).blk t).view.read (Elt Ideal) (Cert.DistSpec.dist (V m c main_arg0) (V m c main_arg1)) := by
  rw [Cert.KernelIdeal.Value.flushed2]
  obtain ⟨-, -, -, -, -, -, e0, e1, e2⟩ := idx_facts t
  have key : ∀ j : S8x512x512.Idx, outsAt0 m c t j
      = Cert.DistSpec.dist (V m c main_arg0) (V m c main_arg1) (((cfg0.win 2).blk t).view.emb j) := by
    intro j
    obtain ⟨k, p, q, rfl⟩ : ∃ (k : Fin 8) (p q : Fin 512), j = ix3 k p q := ⟨j 0, j 1, j 2, eq_ix3 j⟩
    refine entry_eq m c t k p q _ ?_ ?_ ?_
    · show win0_2.index t 0 * 8 + 1 * k.val = 8 * t.val + k.val; omega
    · show win0_2.index t 1 * 512 + 1 * p.val = p.val; omega
    · show win0_2.index t 2 * 512 + 1 * q.val = q.val; omega
  funext j
  exact key j

/-- An index of the result array is in point `t`'s block iff each coordinate is in the block's range on its axis. -/
theorem mem_blk (t : Fin cfg0.N) (i : S512x512x512.Idx) :
    i ∈ ((cfg0.win 2).blk t).view.set ↔ ∀ a : Fin 3, win0_2.index t a * S8x512x512.size a ≤ (i a).val
      ∧ (i a).val < win0_2.index t a * S8x512x512.size a + S8x512x512.size a := by
  show i ∈ ((View.whole main_v0).slice (win0_2.rect t)).set ↔ _
  rw [View.set_slice_whole, Rect.mem_set_unit]
  exact Iff.rfl

/-- Every index of the result array lies in the block of the point that holds its batch row. -/
theorem cover (i : S512x512x512.Idx) :
    ∃ t : Fin cfg0.N, (cfg0.win 2).flush t = true ∧ i ∈ ((cfg0.win 2).blk t).view.set := by
  have hi0 : (i 0).val < 512 := (i 0).isLt
  have hi1 : (i 1).val < 512 := (i 1).isLt
  have hi2 : (i 2).val < 512 := (i 2).isLt
  have hN : cfg0.N = 64 := N_0
  obtain ⟨t, ht⟩ : ∃ t : Fin cfg0.N, t.val = (i 0).val / 8 := ⟨⟨(i 0).val / 8, by rw [hN]; omega⟩, rfl⟩
  obtain ⟨-, -, -, -, -, -, e0, e1, e2⟩ := idx_facts t
  refine ⟨t, flush0_2 t, ?_⟩
  rw [mem_blk]
  intro a
  match a with
  | ⟨0, _⟩ => show win0_2.index t 0 * 8 ≤ (i 0).val ∧ (i 0).val < win0_2.index t 0 * 8 + 8; omega
  | ⟨1, _⟩ => show win0_2.index t 1 * 512 ≤ (i 1).val ∧ (i 1).val < win0_2.index t 1 * 512 + 512; omega
  | ⟨2, _⟩ => show win0_2.index t 2 * 512 ≤ (i 2).val ∧ (i 2).val < win0_2.index t 2 * 512 + 512; omega

/-- After the run the result array is the distance array of the two arguments. -/
theorem final (c : Dev nD) :
    (dats m 0 c).arrAt 2 cfg0.N
      = Cert.DistSpec.dist (m ((c : Thread nD τ).loc main_arg0)) (m ((c : Thread nD τ).loc main_arg1)) :=
  (dats m 0 c).arrAt_eq_of_cover 2 (Cert.DistSpec.dist (V m c main_arg0) (V m c main_arg1))
    (fun t _ => flushed_eq m c t) cover

/-- The kernel's run, read: the result array ends at the distance array of the arguments, which end unchanged. -/
theorem run : θ_run defs (onTc (τ := τ) (main (F := Ideal))) ⟨m, fun _ => 0, ρ⟩ fun r => ∀ c : Dev nD,
      r.2.mem ((c : Thread nD τ).loc main_v0)
        = Cert.DistSpec.dist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.WholeArray

end
-- ==== Proof.lean ====
/-
  Batched pairwise Euclidean distance: a tiled kernel against the plain array formula.

  Both programs compute, for every batch index b, row p of the first argument and row q of the second,

      sqrt ( max ( |x_p|² + |y_q - ε|² - 2 · ⟨x_p, y_q - ε⟩ , 0 ) ),

  with the same literals and the operations in the same order (Proof/DistSpec.lean states it once, on the extended
  reals).  The reference does so on whole arrays (Proof/RefDist.lean reads its last array entry by entry).  The kernel
  walks the batch in blocks of eight rows and, inside a block, one batch row per trip of a loop: Proof/RowPayload.lean
  reads what one trip stores, Proof/TripPieces.lean and Proof/BodyEntry.lean what the eight trips leave in the output
  block, Proof/WholeArray.lean what the 64 blocks leave in the result array.  The two sides then meet in one function of
  the arguments.  No law beyond the definitions is needed: the sums are the same sums, term for term, so nothing is
  asked of the inputs, and the precondition is never opened.  The kernel's narrowing of the product's factors is the
  identity on the extended reals, and the idealized kernel is the kernel's own text, so the idealization's claim is
  the trivial one.
-/
import proofs.«126458_j63333587746928_2_alg».proof.Defs
import proofs.«126458_j63333587746928_2_alg».proof.Proof.Gen.Kernel
import proofs.«126458_j63333587746928_2_alg».proof.Proof.Gen.Kernel.Skeleton
import proofs.«126458_j63333587746928_2_alg».proof.Proof.Gen.Kernel.Loops
import proofs.«126458_j63333587746928_2_alg».proof.Proof.Gen.Kernel.Launch
import proofs.«126458_j63333587746928_2_alg».proof.Proof.Gen.Kernel.Points
import proofs.«126458_j63333587746928_2_alg».proof.Proof.Gen.Kernel.Frame
import proofs.«126458_j63333587746928_2_alg».proof.Proof.Gen.KernelIdeal
import proofs.«126458_j63333587746928_2_alg».proof.Proof.Gen.KernelIdeal.Skeleton
import proofs.«126458_j63333587746928_2_alg».proof.Proof.Gen.KernelIdeal.Loops
import proofs.«126458_j63333587746928_2_alg».proof.Proof.Gen.KernelIdeal.Launch
import proofs.«126458_j63333587746928_2_alg».proof.Proof.Gen.KernelIdeal.Points
import proofs.«126458_j63333587746928_2_alg».proof.Proof.Gen.KernelIdeal.Frame
import proofs.«126458_j63333587746928_2_alg».proof.Proof.Gen.ReferenceIdeal
import proofs.«126458_j63333587746928_2_alg».proof.Proof.Gen.KernelIdeal.Value
import proofs.«126458_j63333587746928_2_alg».proof.Proof.Gen.ReferenceIdeal.Run
import proofs.«126458_j63333587746928_2_alg».proof.Proof.Gen.ReferenceIdeal.Read
import proofs.«126458_j63333587746928_2_alg».proof.Proof.Gen.Pre_finite_inputs
import proofs.«126458_j63333587746928_2_alg».proof.Proof.RefDist
import proofs.«126458_j63333587746928_2_alg».proof.Proof.WholeArray
import Idealize.ShloMosaic.Adequacy
import Idealize.ShloMosaic.Init

noncomputable section

namespace Cert.Proof

open Idealize.ShloMosaic Idealize.ShloMosaic.TcCoe Idealize.SL.Sem

/-- The kernel as printed runs, and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel's result array and the reference's both end at the distance array of the
    arguments. -/
theorem algebraic : Cert.algebraic_KernelIdeal_ReferenceIdeal := by
  intro m ρ m' ρ' _ hagree
  refine ⟨fun c => Cert.DistSpec.dist (m ((c : Thread Cert.KernelIdeal.nD Cert.KernelIdeal.τ).loc Cert.KernelIdeal.main_arg0))
    (m ((c : Thread Cert.KernelIdeal.nD Cert.KernelIdeal.τ).loc Cert.KernelIdeal.main_arg1)),
    Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefDist.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
